-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048x128 : Shape := ⟨3, ![16, 2048, 128]⟩
abbrev S128x128 : Shape := ⟨2, ![128, 128]⟩
abbrev S_ : Shape := ⟨0, ![]⟩

class Facts : Prop where
  bcast_S_S16x2048x128 : S_.BroadcastsInDim S16x2048x128 (![] : Fin 0 → Fin S16x2048x128.rank)
  reducesTo_S16x2048x128_S_d0_1_2 : S16x2048x128.ReducesTo [0, 1, 2] S_
  h_S_ : 0 < S_.numel
  bcast_S_S128x128 : S_.BroadcastsInDim S128x128 (![] : Fin 0 → Fin S128x128.rank)
  reducesTo_S128x128_S_d0_1 : S128x128.ReducesTo [0, 1] S_

variable [Facts]

def fn {F : FTy → Type} [FloatOps F] (main_arg0 : FVec F S16x2048x128 .f32) (main_arg1 : FVec F S128x128 .f32) : IVec S_ 1 :=
  let main_v0 : FVec F S16x2048x128 .f32 := Host.absf main_arg0
  let main_cst : FVec F S_ .f32 := constant S_ .f32 0x7F800000#32
  let main_v1 : FVec F S16x2048x128 .f32 := broadcastInDim S16x2048x128 ![] bcast_S_S16x2048x128 main_cst
  let main_v2 : IVec S16x2048x128 1 := cmpf .olt main_v0 main_v1
  let main_c : IVec S_ 1 := constantI S_ 1 1#1
  let main_v3 : IVec S_ 1 := (fun x v => Host.reduce IntOp.andi x v reducesTo_S16x2048x128_S_d0_1_2 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  main_v8
-- ==== Kernel.lean ====
abbrev S16x2048x128 : Shape := ⟨3, ![16, 2048, 128]⟩
abbrev S128x128 : Shape := ⟨2, ![128, 128]⟩
abbrev S32768x128 : Shape := ⟨2, ![32768, 128]⟩
abbrev S16384x128 : Shape := ⟨2, ![16384, 128]⟩

abbrev nBuf : Space → Nat
  | .hbm => 5
  | .vmem => 5
  | .smem => 0
  | _ => 0

abbrev bufTy : (tb : Table) → Fin (tcTables nBuf tb) → BufTy
  | .hbm, ⟨0, _⟩ => ⟨S16x2048x128, .f32⟩
  | .hbm, ⟨1, _⟩ => ⟨S128x128, .f32⟩
  | .hbm, ⟨2, _⟩ => ⟨S32768x128, .f32⟩
  | .hbm, ⟨3, _⟩ => ⟨S32768x128, .f32⟩
  | .hbm, ⟨4, _⟩ => ⟨S16x2048x128, .f32⟩
  | .local _ .vmem, ⟨0, _⟩ => ⟨S16384x128, .f32⟩
  | .local _ .vmem, ⟨1, _⟩ => ⟨S16384x128, .f32⟩
  | .local _ .vmem, ⟨2, _⟩ => ⟨S128x128, .f32⟩
  | .local _ .vmem, ⟨3, _⟩ => ⟨S16384x128, .f32⟩
  | .local _ .vmem, ⟨4, _⟩ => ⟨S16384x128, .f32⟩
  | _, _ => ⟨S16x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16384x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S16384x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S16x2048x128_S32768x128 : S16x2048x128.ShapeCasts S32768x128
  inb_S16384x128_S16384x128_0_0 : ∀ a, (![0, 0] : Fin 2 → Nat) a + S16384x128.size a ≤ S16384x128.size a
  h_S16384x128 : 0 < S16384x128.numel
  shapeCasts_S16384x128_S16384x128 : S16384x128.ShapeCasts S16384x128
  inb_S128x128_S128x128_0_0 : ∀ a, (![0, 0] : Fin 2 → Nat) a + S128x128.size a ≤ S128x128.size a
  h_S128x128 : 0 < S128x128.numel
  shapeCasts_S32768x128_S16x2048x128 : S32768x128.ShapeCasts S16x2048x128
  dot_S16384x128_S128x128_S16384x128_1_1_0_0_n_n_wf : DotDims.WF S16384x128 S128x128 S16384x128 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16384x128.size a ≤ S32768x128.size a
  hwx0_0 : ∀ i : grid0.Coords, EltTy.bits .f32 = 32 ∨ (Rect.block (s := S32768x128) S16384x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16384x128.size a ≤ S32768x128.size a
  hwx0_2 : ∀ i : grid0.Coords, EltTy.bits .f32 = 32 ∨ (Rect.block (s := S32768x128) S16384x128.size (cc0_transform_2 i) (hinb0_2 i)).WholeWords (EltTy.packing .f32)

variable [Facts₀]

def dot_S16384x128_S128x128_S16384x128_1_1_0_0_n_n : DotDims S16384x128 S128x128 S16384x128 where
  lhsContracting := [1]
  rhsContracting := [1]
  lhsNonContracting := [0]
  rhsNonContracting := [0]
  lhsBatch := []
  rhsBatch := []
  wf := dot_S16384x128_S128x128_S16384x128_1_1_0_0_n_n_wf

abbrev win0_0 : Pipeline.Window sig grid0 :=
  Pipeline.Window.ofSpec (Memref.whole main_v0) S16384x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S16384x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16x2048x128 : Shape := ⟨3, ![16, 2048, 128]⟩
abbrev S128x128 : Shape := ⟨2, ![128, 128]⟩
abbrev S1x2048x128 : Shape := ⟨3, ![1, 2048, 128]⟩
abbrev S2048x128 : Shape := ⟨2, ![2048, 128]⟩

abbrev nBuf : Space → Nat
  | .hbm => 67
  | .vmem => 0
  | .smem => 0
  | _ => 0

abbrev bufTy : (tb : Table) → Fin (tcTables nBuf tb) → BufTy
  | .hbm, ⟨0, _⟩ => ⟨S16x2048x128, .f32⟩
  | .hbm, ⟨1, _⟩ => ⟨S128x128, .f32⟩
  | .hbm, ⟨2, _⟩ => ⟨S1x2048x128, .f32⟩
  | .hbm, ⟨3, _⟩ => ⟨S2048x128, .f32⟩
  | .hbm, ⟨4, _⟩ => ⟨S2048x128, .f32⟩
  | .hbm, ⟨5, _⟩ => ⟨S1x2048x128, .f32⟩
  | .hbm, ⟨6, _⟩ => ⟨S2048x128, .f32⟩
  | .hbm, ⟨7, _⟩ => ⟨S2048x128, .f32⟩
  | .hbm, ⟨8, _⟩ => ⟨S1x2048x128, .f32⟩
  | .hbm, ⟨9, _⟩ => ⟨S2048x128, .f32⟩
  | .hbm, ⟨10, _⟩ => ⟨S2048x128, .f32⟩
  | .hbm, ⟨11, _⟩ => ⟨S1x2048x128, .f32⟩
  | .hbm, ⟨12, _⟩ => ⟨S2048x128, .f32⟩
  | .hbm, ⟨13, _⟩ => ⟨S2048x128, .f32⟩
  | .hbm, ⟨14, _⟩ => ⟨S1x2048x128, .f32⟩
  | .hbm, ⟨15, _⟩ => ⟨S2048x128, .f32⟩
  | .hbm, ⟨16, _⟩ => ⟨S2048x128, .f32⟩
  | .hbm, ⟨17, _⟩ => ⟨S1x2048x128, .f32⟩
  | .hbm, ⟨18, _⟩ => ⟨S2048x128, .f32⟩
  | .hbm, ⟨19, _⟩ => ⟨S2048x128, .f32⟩
  | .hbm, ⟨20, _⟩ => ⟨S1x2048x128, .f32⟩
  | .hbm, ⟨21, _⟩ => ⟨S2048x128, .f32⟩
  | .hbm, ⟨22, _⟩ => ⟨S2048x128, .f32⟩
  | .hbm, ⟨23, _⟩ => ⟨S1x2048x128, .f32⟩
  | .hbm, ⟨24, _⟩ => ⟨S2048x128, .f32⟩
  | .hbm, ⟨25, _⟩ => ⟨S2048x128, .f32⟩
  | .hbm, ⟨26, _⟩ => ⟨S1x2048x128, .f32⟩
  | .hbm, ⟨27, _⟩ => ⟨S2048x128, .f32⟩
  | .hbm, ⟨28, _⟩ => ⟨S2048x128, .f32⟩
  | .hbm, ⟨29, _⟩ => ⟨S1x2048x128, .f32⟩
  | .hbm, ⟨30, _⟩ => ⟨S2048x128, .f32⟩
  | .hbm, ⟨31, _⟩ => ⟨S2048x128, .f32⟩
  | .hbm, ⟨32, _⟩ => ⟨S1x2048x128, .f32⟩
  | .hbm, ⟨33, _⟩ => ⟨S2048x128, .f32⟩
  | .hbm, ⟨34, _⟩ => ⟨S2048x128, .f32⟩
  | .hbm, ⟨35, _⟩ => ⟨S1x2048x128, .f32⟩
  | .hbm, ⟨36, _⟩ => ⟨S2048x128, .f32⟩
  | .hbm, ⟨37, _⟩ => ⟨S2048x128, .f32⟩
  | .hbm, ⟨38, _⟩ => ⟨S1x2048x128, .f32⟩
  | .hbm, ⟨39, _⟩ => ⟨S2048x128, .f32⟩
  | .hbm, ⟨40, _⟩ => ⟨S2048x128, .f32⟩
  | .hbm, ⟨41, _⟩ => ⟨S1x2048x128, .f32⟩
  | .hbm, ⟨42, _⟩ => ⟨S2048x128, .f32⟩
  | .hbm, ⟨43, _⟩ => ⟨S2048x128, .f32⟩
  | .hbm, ⟨44, _⟩ => ⟨S1x2048x128, .f32⟩
  | .hbm, ⟨45, _⟩ => ⟨S2048x128, .f32⟩
  | .hbm, ⟨46, _⟩ => ⟨S2048x128, .f32⟩
  | .hbm, ⟨47, _⟩ => ⟨S1x2048x128, .f32⟩
  | .hbm, ⟨48, _⟩ => ⟨S2048x128, .f32⟩
  | .hbm, ⟨49, _⟩ => ⟨S2048x128, .f32⟩
  | .hbm, ⟨50, _⟩ => ⟨S1x2048x128, .f32⟩
  | .hbm, ⟨51, _⟩ => ⟨S1x2048x128, .f32⟩
  | .hbm, ⟨52, _⟩ => ⟨S1x2048x128, .f32⟩
  | .hbm, ⟨53, _⟩ => ⟨S1x2048x128, .f32⟩
  | .hbm, ⟨54, _⟩ => ⟨S1x2048x128, .f32⟩
  | .hbm, ⟨55, _⟩ => ⟨S1x2048x128, .f32⟩
  | .hbm, ⟨56, _⟩ => ⟨S1x2048x128, .f32⟩
  | .hbm, ⟨57, _⟩ => ⟨S1x2048x128, .f32⟩
  | .hbm, ⟨58, _⟩ => ⟨S1x2048x128, .f32⟩
  | .hbm, ⟨59, _⟩ => ⟨S1x2048x128, .f32⟩
  | .hbm, ⟨60, _⟩ => ⟨S1x2048x128, .f32⟩
  | .hbm, ⟨61, _⟩ => ⟨S1x2048x128, .f32⟩
  | .hbm, ⟨62, _⟩ => ⟨S1x2048x128, .f32⟩
  | .hbm, ⟨63, _⟩ => ⟨S1x2048x128, .f32⟩
  | .hbm, ⟨64, _⟩ => ⟨S1x2048x128, .f32⟩
  | .hbm, ⟨65, _⟩ => ⟨S1x2048x128, .f32⟩
  | .hbm, ⟨66, _⟩ => ⟨S16x2048x128, .f32⟩
  | _, _ => ⟨S16x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev main_v23 : Ref sig .tc := ⟨.hbm, 25, rfl⟩
abbrev main_v24 : Ref sig .tc := ⟨.hbm, 26, rfl⟩
abbrev main_v25 : Ref sig .tc := ⟨.hbm, 27, rfl⟩
abbrev main_v26 : Ref sig .tc := ⟨.hbm, 28, rfl⟩
abbrev main_v27 : Ref sig .tc := ⟨.hbm, 29, rfl⟩
abbrev main_v28 : Ref sig .tc := ⟨.hbm, 30, rfl⟩
abbrev main_v29 : Ref sig .tc := ⟨.hbm, 31, rfl⟩
abbrev main_v30 : Ref sig .tc := ⟨.hbm, 32, rfl⟩
abbrev main_v31 : Ref sig .tc := ⟨.hbm, 33, rfl⟩
abbrev main_v32 : Ref sig .tc := ⟨.hbm, 34, rfl⟩
abbrev main_v33 : Ref sig .tc := ⟨.hbm, 35, rfl⟩
abbrev main_v34 : Ref sig .tc := ⟨.hbm, 36, rfl⟩
abbrev main_v35 : Ref sig .tc := ⟨.hbm, 37, rfl⟩
abbrev main_v36 : Ref sig .tc := ⟨.hbm, 38, rfl⟩
abbrev main_v37 : Ref sig .tc := ⟨.hbm, 39, rfl⟩
abbrev main_v38 : Ref sig .tc := ⟨.hbm, 40, rfl⟩
abbrev main_v39 : Ref sig .tc := ⟨.hbm, 41, rfl⟩
abbrev main_v40 : Ref sig .tc := ⟨.hbm, 42, rfl⟩
abbrev main_v41 : Ref sig .tc := ⟨.hbm, 43, rfl⟩
abbrev main_v42 : Ref sig .tc := ⟨.hbm, 44, rfl⟩
abbrev main_v43 : Ref sig .tc := ⟨.hbm, 45, rfl⟩
abbrev main_v44 : Ref sig .tc := ⟨.hbm, 46, rfl⟩
abbrev main_v45 : Ref sig .tc := ⟨.hbm, 47, rfl⟩
abbrev main_v46 : Ref sig .tc := ⟨.hbm, 48, rfl⟩
abbrev main_v47 : Ref sig .tc := ⟨.hbm, 49, rfl⟩
abbrev main_v48 : Ref sig .tc := ⟨.hbm, 50, rfl⟩
abbrev main_v49 : Ref sig .tc := ⟨.hbm, 51, rfl⟩
abbrev main_v50 : Ref sig .tc := ⟨.hbm, 52, rfl⟩
abbrev main_v51 : Ref sig .tc := ⟨.hbm, 53, rfl⟩
abbrev main_v52 : Ref sig .tc := ⟨.hbm, 54, rfl⟩
abbrev main_v53 : Ref sig .tc := ⟨.hbm, 55, rfl⟩
abbrev main_v54 : Ref sig .tc := ⟨.hbm, 56, rfl⟩
abbrev main_v55 : Ref sig .tc := ⟨.hbm, 57, rfl⟩
abbrev main_v56 : Ref sig .tc := ⟨.hbm, 58, rfl⟩
abbrev main_v57 : Ref sig .tc := ⟨.hbm, 59, rfl⟩
abbrev main_v58 : Ref sig .tc := ⟨.hbm, 60, rfl⟩
abbrev main_v59 : Ref sig .tc := ⟨.hbm, 61, rfl⟩
abbrev main_v60 : Ref sig .tc := ⟨.hbm, 62, rfl⟩
abbrev main_v61 : Ref sig .tc := ⟨.hbm, 63, rfl⟩
abbrev main_v62 : Ref sig .tc := ⟨.hbm, 64, rfl⟩
abbrev main_v63 : Ref sig .tc := ⟨.hbm, 65, rfl⟩
abbrev main_v64 : Ref sig .tc := ⟨.hbm, 66, rfl⟩

abbrev nD : Nat := 1
abbrev τ : Topo := Topo.v7x

variable {F : FTy → Type} [FloatOps F]

class Facts₀ : Prop where
  slices_S16x2048x128_S1x2048x128_0_0_0 : S16x2048x128.Slices ![0, 0, 0] S1x2048x128
  shapeCasts_S1x2048x128_S2048x128 : S1x2048x128.ShapeCasts S2048x128
  slices_S16x2048x128_S1x2048x128_1_0_0 : S16x2048x128.Slices ![1, 0, 0] S1x2048x128
  slices_S16x2048x128_S1x2048x128_2_0_0 : S16x2048x128.Slices ![2, 0, 0] S1x2048x128
  slices_S16x2048x128_S1x2048x128_3_0_0 : S16x2048x128.Slices ![3, 0, 0] S1x2048x128
  slices_S16x2048x128_S1x2048x128_4_0_0 : S16x2048x128.Slices ![4, 0, 0] S1x2048x128
  slices_S16x2048x128_S1x2048x128_5_0_0 : S16x2048x128.Slices ![5, 0, 0] S1x2048x128
  slices_S16x2048x128_S1x2048x128_6_0_0 : S16x2048x128.Slices ![6, 0, 0] S1x2048x128
  slices_S16x2048x128_S1x2048x128_7_0_0 : S16x2048x128.Slices ![7, 0, 0] S1x2048x128
  slices_S16x2048x128_S1x2048x128_8_0_0 : S16x2048x128.Slices ![8, 0, 0] S1x2048x128
  slices_S16x2048x128_S1x2048x128_9_0_0 : S16x2048x128.Slices ![9, 0, 0] S1x2048x128
  slices_S16x2048x128_S1x2048x128_10_0_0 : S16x2048x128.Slices ![10, 0, 0] S1x2048x128
  slices_S16x2048x128_S1x2048x128_11_0_0 : S16x2048x128.Slices ![11, 0, 0] S1x2048x128
  slices_S16x2048x128_S1x2048x128_12_0_0 : S16x2048x128.Slices ![12, 0, 0] S1x2048x128
  slices_S16x2048x128_S1x2048x128_13_0_0 : S16x2048x128.Slices ![13, 0, 0] S1x2048x128
  slices_S16x2048x128_S1x2048x128_14_0_0 : S16x2048x128.Slices ![14, 0, 0] S1x2048x128
  slices_S16x2048x128_S1x2048x128_15_0_0 : S16x2048x128.Slices ![15, 0, 0] S1x2048x128
  bcast_S2048x128_S1x2048x128_1_2 : S2048x128.BroadcastsInDim S1x2048x128 (![1, 2] : Fin 2 → Fin S1x2048x128.rank)
  concatenates_S1x2048x128_S1x2048x128_S1x2048x128_S1x2048x128_S1x2048x128_S1x2048x128_S1x2048x128_S1x2048x128_S1x2048x128_S1x2048x128_S1x2048x128_S1x2048x128_S1x2048x128_S1x2048x128_S1x2048x128_S1x2048x128_S16x2048x128_d0 : Shape.Concatenates [S1x2048x128, S1x2048x128, S1x2048x128, S1x2048x128, S1x2048x128, S1x2048x128, S1x2048x128, S1x2048x128, S1x2048x128, S1x2048x128, S1x2048x128, S1x2048x128, S1x2048x128, S1x2048x128, S1x2048x128, S1x2048x128] S16x2048x128 0
  dot_S2048x128_S128x128_S2048x128_1_1_0_0_n_n_wf : DotDims.WF S2048x128 S128x128 S2048x128 [1] [1] [0] [0] [] []

variable [Facts₀]

def dot_S2048x128_S128x128_S2048x128_1_1_0_0_n_n : DotDims S2048x128 S128x128 S2048x128 where
  lhsContracting := [1]
  rhsContracting := [1]
  lhsNonContracting := [0]
  rhsNonContracting := [0]
  lhsBatch := []
  rhsBatch := []
  wf := dot_S2048x128_S128x128_S2048x128_1_1_0_0_n_n_wf

class Facts : Prop extends Facts₀ where

variable [Facts]
-- ==== Proof.LibMatmul2d.lean ====
/-
  A matrix product of the exact instance read at an index, for two-dimensional operands.

  At the exact instance a product into a zero accumulator is, at the output index (i, j), the sum over the
  contraction index of the operands' products. The contraction index is a one-axis multi-index; the operands are
  addressed through the dimension record's index maps. This file turns that into the textbook form

      (A · B) (i, j) = Σ_{k < K} A (i, k) · B (k, j)            (M×K by K×N),
      (A · Bᵀ) (i, j) = Σ_{k < K} A (i, k) · B (j, k)           (M×K by N×K),

  with the sum over `Fin K` and every index written by coordinates, for the library's two canonical dimension
  records. A printed program's own record with the same six index lists is equal to the canonical one by `rfl`
  (its well-formedness field is a proposition), so `rw [show dot_… = DotDims.plain M K N from rfl]` brings a printed
  product under these lemmas.
-/
import Idealize.ShloMosaic.Lib.ValueIdx
import Idealize.ShloMosaic.PureOps.Ideal.Laws

noncomputable section

namespace Cert.LibMatmul2d

open Idealize.ShloMosaic Idealize.ShloMosaic.ValueIdx
open scoped BigOperators

variable {M K N : ℕ}

/-! ## M×K by K×N -/

section Plain

local notation "D" => DotDims.plain M K N

theorem plain_rank : (D).contr.rank = 1 := rfl
theorem plain_size : (D).contr.size ⟨0, by rw [plain_rank]; exact Nat.one_pos⟩ = K := rfl

/-- The left operand's row is the output's row. -/
theorem plain_lhs_row (i : Fin M) (j : Fin N) (k : (D).contr.Idx) : (D).lhsIdx (ix2 i j) k (0 : Fin 2) = i := by
  unfold DotDims.lhsIdx
  simp [DotDims.plain]
  first | rfl | exact Fin.ext rfl | (apply Fin.ext; simp)

/-- The right operand's column is the output's column. -/
theorem plain_rhs_col (i : Fin M) (j : Fin N) (k : (D).contr.Idx) : (D).rhsIdx (ix2 i j) k (1 : Fin 2) = j := by
  unfold DotDims.rhsIdx
  simp [DotDims.plain]
  first | rfl | exact Fin.ext rfl | (apply Fin.ext; simp)

/-- The product of an M×K by a K×N operand into a zero accumulator, at (i, j). -/
theorem matmul_plain_apply {φ₁ φ₂ : FTy} (a : FVec Ideal ⟨2, ![M, K]⟩ φ₁) (b : FVec Ideal ⟨2, ![K, N]⟩ φ₂)
    (i : Fin M) (j : Fin N) :
    FloatOps.matmul (D) none a b (constant ⟨2, ![M, N]⟩ .f32 0x00000000#32) (ix2 i j)
      = ∑ k : Fin K, a (ix2 i k) * b (ix2 k j) := by
  rw [Ideal.matmul_constant_zero_apply, ← Equiv.sum_comp (contrEquiv1 (D) K plain_rank plain_size).symm]
  refine Finset.sum_congr rfl fun k _ => ?_
  have hl : (D).lhsIdx (ix2 i j) ((contrEquiv1 (D) K plain_rank plain_size).symm k) = ix2 i k := by
    funext ax
    match ax with
    | ⟨0, _⟩ => exact plain_lhs_row i j _
    | ⟨1, _⟩ =>
      refine Fin.ext ?_
      rw [show (⟨1, by decide⟩ : Fin 2) = (1 : Fin 2) from rfl, DotDims.lhsIdx_val_of_single (D) (cl := (1 : Fin 2)) rfl]
      exact contrEquiv1_symm_val (D) K plain_rank plain_size k
  have hr : (D).rhsIdx (ix2 i j) ((contrEquiv1 (D) K plain_rank plain_size).symm k) = ix2 k j := by
    funext ax
    match ax with
    | ⟨0, _⟩ =>
      refine Fin.ext ?_
      rw [show (⟨0, by decide⟩ : Fin 2) = (0 : Fin 2) from rfl, DotDims.rhsIdx_val_of_single (D) (cr := (0 : Fin 2)) rfl]
      exact contrEquiv1_symm_val (D) K plain_rank plain_size k
    | ⟨1, _⟩ => exact plain_rhs_col i j _
  rw [hl, hr]

end Plain

/-! ## M×K by N×K: the right operand contracted on its last axis -/

section TransposedRhs

local notation "D" => DotDims.transposedRhs M K N

theorem trhs_rank : (D).contr.rank = 1 := rfl
theorem trhs_size : (D).contr.size ⟨0, by rw [trhs_rank]; exact Nat.one_pos⟩ = K := rfl

theorem trhs_lhs_row (i : Fin M) (j : Fin N) (k : (D).contr.Idx) : (D).lhsIdx (ix2 i j) k (0 : Fin 2) = i := by
  unfold DotDims.lhsIdx
  simp [DotDims.transposedRhs]
  first | rfl | exact Fin.ext rfl | (apply Fin.ext; simp)

theorem trhs_rhs_row (i : Fin M) (j : Fin N) (k : (D).contr.Idx) : (D).rhsIdx (ix2 i j) k (0 : Fin 2) = j := by
  unfold DotDims.rhsIdx
  simp [DotDims.transposedRhs]
  first | rfl | exact Fin.ext rfl | (apply Fin.ext; simp)

/-- The product of an M×K operand with the transpose of an N×K operand into a zero accumulator, at (i, j). -/
theorem matmul_transposedRhs_apply {φ₁ φ₂ : FTy} (a : FVec Ideal ⟨2, ![M, K]⟩ φ₁) (b : FVec Ideal ⟨2, ![N, K]⟩ φ₂)
    (i : Fin M) (j : Fin N) :
    FloatOps.matmul (D) none a b (constant ⟨2, ![M, N]⟩ .f32 0x00000000#32) (ix2 i j)
      = ∑ k : Fin K, a (ix2 i k) * b (ix2 j k) := by
  rw [Ideal.matmul_constant_zero_apply, ← Equiv.sum_comp (contrEquiv1 (D) K trhs_rank trhs_size).symm]
  refine Finset.sum_congr rfl fun k _ => ?_
  have hl : (D).lhsIdx (ix2 i j) ((contrEquiv1 (D) K trhs_rank trhs_size).symm k) = ix2 i k := by
    funext ax
    match ax with
    | ⟨0, _⟩ => exact trhs_lhs_row i j _
    | ⟨1, _⟩ =>
      refine Fin.ext ?_
      rw [show (⟨1, by decide⟩ : Fin 2) = (1 : Fin 2) from rfl, DotDims.lhsIdx_val_of_single (D) (cl := (1 : Fin 2)) rfl]
      exact contrEquiv1_symm_val (D) K trhs_rank trhs_size k
  have hr : (D).rhsIdx (ix2 i j) ((contrEquiv1 (D) K trhs_rank trhs_size).symm k) = ix2 j k := by
    funext ax
    match ax with
    | ⟨0, _⟩ => exact trhs_rhs_row i j _
    | ⟨1, _⟩ =>
      refine Fin.ext ?_
      rw [show (⟨1, by decide⟩ : Fin 2) = (1 : Fin 2) from rfl, DotDims.rhsIdx_val_of_single (D) (cr := (1 : Fin 2)) rfl]
      exact contrEquiv1_symm_val (D) K trhs_rank trhs_size k
  rw [hl, hr]

end TransposedRhs

/-! ## K×M by K×N: both operands contracted on their first axis -/

/-- `<[0], [0], [1], [1], [0, 1, 1, 1], [], []>`: the transpose of a K×M operand by a K×N operand. -/
def transposedLhs (K M N : Nat) : DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := ⟨rfl, by simp, rfl, by simp, by simp, by simp, by simpa [List.finRange] using List.Perm.swap 0 1 [],
    by simpa [List.finRange] using List.Perm.swap 0 1 [], rfl, Nat.two_pos, fun b => by fin_cases b <;> rfl⟩

section TransposedLhs

local notation "D" => transposedLhs K M N

theorem tlhs_rank : (D).contr.rank = 1 := rfl
theorem tlhs_size : (D).contr.size ⟨0, by rw [tlhs_rank]; exact Nat.one_pos⟩ = K := rfl

theorem tlhs_lhs_col (i : Fin M) (j : Fin N) (k : (D).contr.Idx) : (D).lhsIdx (ix2 i j) k (1 : Fin 2) = i := by
  unfold DotDims.lhsIdx
  simp [transposedLhs]
  first | rfl | exact Fin.ext rfl | (apply Fin.ext; simp)

theorem tlhs_rhs_col (i : Fin M) (j : Fin N) (k : (D).contr.Idx) : (D).rhsIdx (ix2 i j) k (1 : Fin 2) = j := by
  unfold DotDims.rhsIdx
  simp [transposedLhs]
  first | rfl | exact Fin.ext rfl | (apply Fin.ext; simp)

/-- The product of the transpose of a K×M operand with a K×N operand into a zero accumulator, at (i, j). -/
theorem matmul_transposedLhs_apply {φ₁ φ₂ : FTy} (a : FVec Ideal ⟨2, ![K, M]⟩ φ₁) (b : FVec Ideal ⟨2, ![K, N]⟩ φ₂)
    (i : Fin M) (j : Fin N) :
    FloatOps.matmul (D) none a b (constant ⟨2, ![M, N]⟩ .f32 0x00000000#32) (ix2 i j)
      = ∑ k : Fin K, a (ix2 k i) * b (ix2 k j) := by
  rw [Ideal.matmul_constant_zero_apply, ← Equiv.sum_comp (contrEquiv1 (D) K tlhs_rank tlhs_size).symm]
  refine Finset.sum_congr rfl fun k _ => ?_
  have hl : (D).lhsIdx (ix2 i j) ((contrEquiv1 (D) K tlhs_rank tlhs_size).symm k) = ix2 k i := by
    funext ax
    match ax with
    | ⟨0, _⟩ =>
      refine Fin.ext ?_
      rw [show (⟨0, by decide⟩ : Fin 2) = (0 : Fin 2) from rfl, DotDims.lhsIdx_val_of_single (D) (cl := (0 : Fin 2)) rfl]
      exact contrEquiv1_symm_val (D) K tlhs_rank tlhs_size k
    | ⟨1, _⟩ => exact tlhs_lhs_col i j _
  have hr : (D).rhsIdx (ix2 i j) ((contrEquiv1 (D) K tlhs_rank tlhs_size).symm k) = ix2 k j := by
    funext ax
    match ax with
    | ⟨0, _⟩ =>
      refine Fin.ext ?_
      rw [show (⟨0, by decide⟩ : Fin 2) = (0 : Fin 2) from rfl, DotDims.rhsIdx_val_of_single (D) (cr := (0 : Fin 2)) rfl]
      exact contrEquiv1_symm_val (D) K tlhs_rank tlhs_size k
    | ⟨1, _⟩ => exact tlhs_rhs_col i j _
  rw [hl, hr]

end TransposedLhs

end Cert.LibMatmul2d

end
-- ==== Proof.LibReshapeRows.lean ====
/-
  A flattened leading axis split into rows and columns by a shape cast, read at an index.

  An array of shape [n, c] with n = a · b is the array of shape [a, b, c] with the same row-major order: position
  (i, j) of the split axes is position i · b + j of the flat axis, and position p of the flat axis is position
  (p / b, p % b) of the split axes. These are the two directions a kernel takes when it computes on pixels as a flat
  axis (a matrix product over all pixels) and on pixels as rows and columns (a stencil).
-/
import Idealize.ShloMosaic.Lib.ValueIdx
import Idealize.ShloMosaic.Lib.Pipeline.Value

noncomputable section

namespace Cert.LibReshapeRows

open Idealize.ShloMosaic Idealize.ShloMosaic.ValueIdx

variable {α : Type} {n a b c : ℕ}

theorem flat_lt (hn : n = a * b) (i : Fin a) (j : Fin b) : i.val * b + j.val < n := by
  subst hn
  calc i.val * b + j.val < i.val * b + b := Nat.add_lt_add_left j.isLt _
    _ = (i.val + 1) * b := (Nat.succ_mul _ _).symm
    _ ≤ a * b := Nat.mul_le_mul_right _ i.isLt

/-- [n, c] cast to [a, b, c]: at (i, j, l) it reads the flat array at (i · b + j, l). -/
theorem shapeCast_flat_to_rows (hn : n = a * b) (x : (⟨2, ![n, c]⟩ : Shape).Idx → α)
    (h : (⟨2, ![n, c]⟩ : Shape).ShapeCasts ⟨3, ![a, b, c]⟩) (i : Fin a) (j : Fin b) (l : Fin c) :
    shapeCast ⟨3, ![a, b, c]⟩ x h (ix3 i j l) = x (ix2 ⟨i.val * b + j.val, flat_lt hn i j⟩ l) :=
  shapeCast_apply x h _ _ (by
    rw [Shape.rowMajor_val_three, Shape.rowMajor_val_two]
    rfl)

theorem div_lt (hn : n = a * b) (p : Fin n) : p.val / b < a := by
  have hp := p.isLt
  subst hn
  exact Nat.div_lt_of_lt_mul (Nat.mul_comm a b ▸ hp)

theorem mod_lt (hn : n = a * b) (p : Fin n) : p.val % b < b := by
  have hp := p.isLt
  subst hn
  refine Nat.mod_lt _ (Nat.pos_of_ne_zero fun hb => ?_)
  subst hb
  simp at hp

/-- [a, b, c] cast to [n, c]: at (p, l) it reads the split array at (p / b, p % b, l). -/
theorem shapeCast_rows_to_flat (hn : n = a * b) (x : (⟨3, ![a, b, c]⟩ : Shape).Idx → α)
    (h : (⟨3, ![a, b, c]⟩ : Shape).ShapeCasts ⟨2, ![n, c]⟩) (p : Fin n) (l : Fin c) :
    shapeCast ⟨2, ![n, c]⟩ x h (ix2 p l) = x (ix3 ⟨p.val / b, div_lt hn p⟩ ⟨p.val % b, mod_lt hn p⟩ l) :=
  shapeCast_apply x h _ _ (by
    rw [Shape.rowMajor_val_three, Shape.rowMajor_val_two]
    show (p.val / b * b + p.val % b) * c + l.val = p.val * c + l.val
    rw [Nat.div_add_mod' p.val b])

/-! ## Two leading and two trailing axes flattened pairwise: [a, b, c, d] ↔ [a·b, c·d] -/

variable {d k : ℕ}

/-- [a, b, c, d] cast to [a·b, c·d]: at (r, p) it reads the four-axis array at (r / b, r % b, p / d, p % d). -/
theorem shapeCast_4d_to_2d (hn : n = a * b) (hk : k = c * d) (x : (⟨4, ![a, b, c, d]⟩ : Shape).Idx → α)
    (h : (⟨4, ![a, b, c, d]⟩ : Shape).ShapeCasts ⟨2, ![n, k]⟩) (r : Fin n) (p : Fin k) :
    shapeCast ⟨2, ![n, k]⟩ x h (ix2 r p)
      = x (ix4 ⟨r.val / b, div_lt hn r⟩ ⟨r.val % b, mod_lt hn r⟩ ⟨p.val / d, div_lt hk p⟩ ⟨p.val % d, mod_lt hk p⟩) :=
  shapeCast_apply x h _ _ (by
    rw [Shape.rowMajor_val_four, Shape.rowMajor_val_two]
    show ((r.val / b * b + r.val % b) * c + p.val / d) * d + p.val % d = r.val * k + p.val
    rw [Nat.div_add_mod' r.val b, Nat.add_mul, Nat.add_assoc, Nat.div_add_mod' p.val d, Nat.mul_assoc, ← hk])

/-- [a·b, c·d] cast to [a, b, c, d]: at (i, j, u, v) it reads the two-axis array at (i · b + j, u · d + v). -/
theorem shapeCast_2d_to_4d (hn : n = a * b) (hk : k = c * d) (x : (⟨2, ![n, k]⟩ : Shape).Idx → α)
    (h : (⟨2, ![n, k]⟩ : Shape).ShapeCasts ⟨4, ![a, b, c, d]⟩) (i : Fin a) (j : Fin b) (u : Fin c) (v : Fin d) :
    shapeCast ⟨4, ![a, b, c, d]⟩ x h (ix4 i j u v)
      = x (ix2 ⟨i.val * b + j.val, flat_lt hn i j⟩ ⟨u.val * d + v.val, flat_lt hk u v⟩) :=
  shapeCast_apply x h _ _ (by
    rw [Shape.rowMajor_val_four, Shape.rowMajor_val_two]
    show (i.val * b + j.val) * k + (u.val * d + v.val) = ((i.val * b + j.val) * c + u.val) * d + v.val
    rw [hk, Nat.add_mul ((i.val * b + j.val) * c), Nat.mul_assoc, Nat.add_assoc])

end Cert.LibReshapeRows

end
-- ==== Proof.LibRowsByRows.lean ====
/-
  Every row of one matrix contracted with every row of another, at the exact instance.

  For a of shape [n, K] and w of shape [N, K] the array

      (a · wᵀ) (p, o) = Σ_{k < K} a (p, k) · w (o, k)

  is what a matrix product contracting the last axis of both operands computes into a zero accumulator, and what
  the host's general product with the same dimension numbers computes. When the n rows are the rows of a batch of
  B matrices of S rows each (n = B · S, row p = b · S + s), splitting the row axis of the result back into
  (b, s) gives the batched form

      y (b, s, o) = Σ_{k < K} x (b, s, k) · w (o, k),

  because flattening and splitting the leading axes move no entry of a row: only the row's name changes. No law of
  arithmetic is used, so nothing here depends on the entries being finite.
-/
import Idealize.ShloMosaic.Lib.ValueIdx
import Idealize.ShloMosaic.Lib.Pipeline.Value
import Idealize.ShloMosaic.PureOps.Ideal.Laws
import proofs.«123026_g16398185136913_cont_week2b_1412_20_alg».proof.Proof.LibMatmul2d
import proofs.«123026_g16398185136913_cont_week2b_1412_20_alg».proof.Proof.LibReshapeRows

noncomputable section

namespace Cert.LibRowsByRows

open Idealize.ShloMosaic Idealize.ShloMosaic.ValueIdx
open scoped BigOperators

variable {n K N : ℕ}

/-- Row p of `a` against row o of `w`, summed over the shared last axis. -/
def rowsByRows (a : FVec Ideal ⟨2, ![n, K]⟩ .f32) (w : FVec Ideal ⟨2, ![N, K]⟩ .f32) : FVec Ideal ⟨2, ![n, N]⟩ .f32 :=
  fun j => ∑ k : Fin K, a (ix2 (j 0 : Fin n) k) * w (ix2 (j 1 : Fin N) k)

theorem rowsByRows_apply (a : FVec Ideal ⟨2, ![n, K]⟩ .f32) (w : FVec Ideal ⟨2, ![N, K]⟩ .f32) (p : Fin n) (o : Fin N) :
    rowsByRows a w (ix2 p o) = ∑ k : Fin K, a (ix2 p k) * w (ix2 o k) := rfl

/-- An entry depends on one row of each operand only: if row p of `a` is row p' of `a'` and row o of `w` is row o' of
    `w'`, the entry at (p, o) of the one product is the entry at (p', o') of the other. -/
theorem rowsByRows_congr {n' N' : ℕ} (a : FVec Ideal ⟨2, ![n, K]⟩ .f32) (w : FVec Ideal ⟨2, ![N, K]⟩ .f32)
    (a' : FVec Ideal ⟨2, ![n', K]⟩ .f32) (w' : FVec Ideal ⟨2, ![N', K]⟩ .f32)
    (j : (⟨2, ![n, N]⟩ : Shape).Idx) (j' : (⟨2, ![n', N']⟩ : Shape).Idx)
    (hrow : ∀ k : Fin K, a (ix2 (j 0 : Fin n) k) = a' (ix2 (j' 0 : Fin n') k))
    (hwt : ∀ k : Fin K, w (ix2 (j 1 : Fin N) k) = w' (ix2 (j' 1 : Fin N') k)) :
    rowsByRows a w j = rowsByRows a' w' j' :=
  Finset.sum_congr rfl fun k _ => by rw [hrow k, hwt k]

/-- A matrix product contracting the last axis of both operands, into a zero accumulator, is that array. -/
theorem matmul_eq_rowsByRows (prec : Option ContractPrecision) (a : FVec Ideal ⟨2, ![n, K]⟩ .f32)
    (w : FVec Ideal ⟨2, ![N, K]⟩ .f32) :
    FloatOps.matmul (DotDims.transposedRhs n K N) prec a w (constant ⟨2, ![n, N]⟩ .f32 0x00000000#32) = rowsByRows a w := by
  funext j
  obtain ⟨p, o, rfl⟩ : ∃ (p : Fin n) (o : Fin N), j = ix2 p o := ⟨j 0, j 1, eq_ix2 j⟩
  rw [rowsByRows_apply, Ideal.matmul_constant_zero_apply,
    ← Ideal.matmul_constant_zero_apply (DotDims.transposedRhs n K N) none a w]
  exact Cert.LibMatmul2d.matmul_transposedRhs_apply a w p o

/-- The host's general product with the same dimension numbers is the same array: it is the same contraction, onto
    zero. -/
theorem hostDot_eq_rowsByRows (prec : Option ContractPrecision) (a : FVec Ideal ⟨2, ![n, K]⟩ .f32)
    (w : FVec Ideal ⟨2, ![N, K]⟩ .f32) :
    Host.dotGeneral (DotDims.transposedRhs n K N) prec a w = rowsByRows a w := by
  funext j
  simp only [Host.dotGeneral]
  rw [Ideal.dotGeneral_apply, ← Ideal.matmul_constant_zero_apply (DotDims.transposedRhs n K N) prec a w,
    matmul_eq_rowsByRows]

/-! ## A batch of matrices, row by row -/

variable {B S : ℕ}

/-- Row (b, s) of the batch `x` against row o of `w`. -/
def batchRowsByRows (x : FVec Ideal ⟨3, ![B, S, K]⟩ .f32) (w : FVec Ideal ⟨2, ![N, K]⟩ .f32) :
    FVec Ideal ⟨3, ![B, S, N]⟩ .f32 :=
  fun i => ∑ k : Fin K, x (ix3 (i 0 : Fin B) (i 1 : Fin S) k) * w (ix2 (i 2 : Fin N) k)

theorem batchRowsByRows_apply (x : FVec Ideal ⟨3, ![B, S, K]⟩ .f32) (w : FVec Ideal ⟨2, ![N, K]⟩ .f32)
    (b : Fin B) (s : Fin S) (o : Fin N) :
    batchRowsByRows x w (ix3 b s o) = ∑ k : Fin K, x (ix3 b s k) * w (ix2 o k) := rfl

/-- Row b · S + s of the flattened batch is row (b, s) of the batch. -/
theorem flat_row_div (b : Fin B) (s : Fin S) : (b.val * S + s.val) / S = b.val := by
  have hS : 0 < S := Nat.lt_of_le_of_lt (Nat.zero_le _) s.isLt
  rw [Nat.add_comm, Nat.add_mul_div_right _ _ hS, Nat.div_eq_of_lt s.isLt, Nat.zero_add]

theorem flat_row_mod (b : Fin B) (s : Fin S) : (b.val * S + s.val) % S = s.val := by
  rw [Nat.add_comm, Nat.add_mul_mod_self_right, Nat.mod_eq_of_lt s.isLt]

/-- Flatten the batch to n = B · S rows, contract every row with every row of `w`, split the rows back: the batched
    form. -/
theorem split_rowsByRows_flatten (hn : n = B * S) (x : FVec Ideal ⟨3, ![B, S, K]⟩ .f32) (w : FVec Ideal ⟨2, ![N, K]⟩ .f32)
    (hflat : (⟨3, ![B, S, K]⟩ : Shape).ShapeCasts ⟨2, ![n, K]⟩) (hsplit : (⟨2, ![n, N]⟩ : Shape).ShapeCasts ⟨3, ![B, S, N]⟩) :
    shapeCast ⟨3, ![B, S, N]⟩ (rowsByRows (shapeCast ⟨2, ![n, K]⟩ x hflat) w) hsplit = batchRowsByRows x w := by
  funext i
  obtain ⟨b, s, o, rfl⟩ : ∃ (b : Fin B) (s : Fin S) (o : Fin N), i = ix3 b s o := ⟨i 0, i 1, i 2, eq_ix3 i⟩
  rw [Cert.LibReshapeRows.shapeCast_flat_to_rows hn, rowsByRows_apply, batchRowsByRows_apply]
  refine Finset.sum_congr rfl fun k _ => ?_
  rw [Cert.LibReshapeRows.shapeCast_rows_to_flat hn]
  congr 2
  funext ax
  match ax with
  | ⟨0, _⟩ => exact Fin.ext (flat_row_div b s)
  | ⟨1, _⟩ => exact Fin.ext (flat_row_mod b s)
  | ⟨2, _⟩ => rfl

end Cert.LibRowsByRows

end
-- ==== Proof.KernelBlock.lean ====
/-
  What the kernel body stores at one grid point.

  The body loads its block of 16384 rows of the flattened batch and the whole 128 × 128 weight, and stores one
  value: the product contracting the last axis of both, into a zero accumulator (the shape cast before it is to the
  same shape, so it changes nothing). At the exact instance that value is, entry by entry,

      (p, o) ↦ Σ_{k < 128} rows (p, k) · weight (o, k).
-/
import proofs.«123026_g16398185136913_cont_week2b_1412_20_alg».proof.Proof.Gen.KernelIdeal.Skeleton
import proofs.«123026_g16398185136913_cont_week2b_1412_20_alg».proof.Proof.LibRowsByRows
import Idealize.ShloMosaic.Lib.Pipeline.Value

noncomputable section

namespace Cert.KernelIdeal.Block

open Idealize.ShloMosaic Cert.KernelIdeal Cert.KernelIdeal.Gen Cert.LibRowsByRows

/-- The stored value is the block's rows against the weight's rows. -/
theorem payload_eq (rows : Vec Ideal S16384x128 .f32) (weight : Vec Ideal S128x128 .f32) :
    k0_pay1 (F := Ideal) rows weight = rowsByRows rows weight := by
  unfold k0_pay1
  rw [shapeCast_self]
  exact matmul_eq_rowsByRows none rows weight

end Cert.KernelIdeal.Block

end
-- ==== Proof.KernelArray.lean ====
/-
  The array the kernel's one region leaves behind.

  The region works on the batch with its two leading axes flattened: 32768 rows of 128 entries. The grid has two
  points; point t takes rows 16384·t … 16384·t + 16383 of the flattened batch and the whole weight, and writes the
  same rows of the output. Its block of the output is the block's rows against the weight's rows, which is the same
  rows of the ONE array

      out (p, o) = Σ_{k < 128} rows (p, k) · weight (o, k),       p < 32768,

  because row p of the output depends on row p of the input only. The two blocks tile the 32768 rows (row p lies in
  the block of point p / 16384), so after the region the output array is that array.
-/
import proofs.«123026_g16398185136913_cont_week2b_1412_20_alg».proof.Proof.Gen.KernelIdeal.Frame
import proofs.«123026_g16398185136913_cont_week2b_1412_20_alg».proof.Proof.KernelBlock
import Idealize.ShloMosaic.Lib.Pipeline.Value
import Idealize.ShloMosaic.Lib.StableHlo.Run

set_option maxRecDepth 16384

noncomputable section

namespace Cert.KernelIdeal.Region

open Idealize.ShloMosaic Idealize.ShloMosaic.TcCoe Idealize.ShloMosaic.ValueIdx Idealize.SL.Sem
open Idealize.ShloMosaic.Pipeline (Dat)
open Cert.KernelIdeal Cert.KernelIdeal.Gen Cert.LibRowsByRows
open scoped BigOperators

variable (m : (ℓ : Loc nD τ sig) → Buf (Elt Ideal) ℓ)

theorem origin_eq : (![0, 0] : Fin 2 → Nat) = fun _ => 0 := funext fun a => by fin_cases a <;> rfl

/-- The region's first operand is the batch with its two leading axes flattened: the one host line before the
    region. -/
theorem entry_rows (c : Dev nD) :
    (V m c main_v0 : S32768x128.Idx → Elt Ideal .f32)
      = shapeCast S32768x128 (m ((c : Thread nD τ).loc main_arg0)) shapeCasts_S16x2048x128_S32768x128 := by
  show StableHlo.after hostOps0 (fun b => m (c, b)) (Proc.devRef .tc main_v0) = _
  after_results
  rfl

/-- The index maps over the two grid points: the row block of the input is the row block of the output, namely the
    point's own number; the weight's block and every column block is the whole axis. -/
theorem idx_facts : ∀ t : Fin cfg0.N,
    win0_0.index t (0 : Fin 2) = win0_2.index t (0 : Fin 2) ∧ win0_0.index t (1 : Fin 2) = 0
    ∧ win0_1.index t (0 : Fin 2) = 0 ∧ win0_1.index t (1 : Fin 2) = 0
    ∧ win0_2.index t (1 : Fin 2) = 0 ∧ win0_2.index t (0 : Fin 2) = t.val :=
  (by decide +kernel : ∀ t : Fin grid0.N, _)

/-- What point t writes back is block t of the rows-against-rows array of the region's operands. -/
theorem flushed_eq (c : Dev nD) (t : Fin cfg0.N) :
    (dats m 0 c).flushed 2 t
      = ((cfg0.win 2).blk t).view.read (Elt Ideal) (rowsByRows (V m c main_v0) (V m c main_arg1)) := by
  show (cfg0.win 2).cut (grid0.coords t) ((dats m 0 c).after 2 t) = _
  rw [after0_2]
  unfold out0_2
  rw [View.canon_unit_zero origin_eq]
  simp only [View.ld_unit_zero (S := S16384x128) origin_eq, View.ld_unit_zero (S := S128x128) origin_eq]
  rw [Cert.KernelIdeal.Block.payload_eq]
  obtain ⟨e0, e1, e2, e3, e4, -⟩ := idx_facts t
  funext j
  obtain ⟨p, o, rfl⟩ : ∃ (p : Fin 16384) (o : Fin 128), j = ix2 p o := ⟨j 0, j 1, eq_ix2 j⟩
  show rowsByRows (iblk m c 0 t) (iblk m c 1 t) (ix2 p o)
    = rowsByRows (V m c main_v0) (V m c main_arg1) (((cfg0.win 2).blk t).view.emb (ix2 p o))
  refine rowsByRows_congr (n := 16384) (K := 128) (N := 128) (n' := 32768) (N' := 128) _ _ _ _ _ _ (fun k => ?_) (fun k => ?_)
  · show V m c main_v0 (((cfg0.win 0).blk t).view.emb (ix2 p k))
      = V m c main_v0 (ix2 ((((cfg0.win 2).blk t).view.emb (ix2 p o)) 0) k)
    refine congrArg _ (funext fun a => Fin.ext ?_)
    match a with
    | ⟨0, _⟩ =>
      show win0_0.index t (0 : Fin 2) * 16384 + 1 * p.val = win0_2.index t (0 : Fin 2) * 16384 + 1 * p.val
      omega
    | ⟨1, _⟩ =>
      show win0_0.index t (1 : Fin 2) * 128 + 1 * k.val = k.val
      omega
  · show V m c main_arg1 (((cfg0.win 1).blk t).view.emb (ix2 o k))
      = V m c main_arg1 (ix2 ((((cfg0.win 2).blk t).view.emb (ix2 p o)) 1) k)
    refine congrArg _ (funext fun a => Fin.ext ?_)
    match a with
    | ⟨0, _⟩ =>
      show win0_1.index t (0 : Fin 2) * 128 + 1 * o.val = win0_2.index t (1 : Fin 2) * 128 + 1 * o.val
      omega
    | ⟨1, _⟩ =>
      show win0_1.index t (1 : Fin 2) * 128 + 1 * k.val = k.val
      omega

/-- A row and column lie in point t's block iff each lies in the block's range on its axis. -/
theorem mem_blk (t : Fin cfg0.N) (i : S32768x128.Idx) :
    i ∈ ((cfg0.win 2).blk t).view.set ↔ ∀ a : Fin 2, win0_2.index t a * S16384x128.size a ≤ (i a).val
      ∧ (i a).val < win0_2.index t a * S16384x128.size a + S16384x128.size a := by
  show i ∈ ((View.whole main_v1).slice (win0_2.rect t)).set ↔ _
  rw [View.set_slice_whole, Rect.mem_set_unit]
  exact Iff.rfl

/-- Row p lies in the block of point p / 16384: the two blocks tile the array. -/
theorem cover (i : S32768x128.Idx) :
    ∃ t : Fin cfg0.N, (cfg0.win 2).flush t = true ∧ i ∈ ((cfg0.win 2).blk t).view.set := by
  have hi0 : (i 0).val < 32768 := (i 0).isLt
  have hi1 : (i 1).val < 128 := (i 1).isLt
  let t : Fin cfg0.N := ⟨(i 0).val / 16384, lt_of_lt_of_eq (by omega : (i 0).val / 16384 < 2) N_0.symm⟩
  have ht : t.val = (i 0).val / 16384 := rfl
  obtain ⟨-, -, -, -, e4, e5⟩ := idx_facts t
  refine ⟨t, flush0_2 t, ?_⟩
  rw [mem_blk]
  intro a
  match a with
  | ⟨0, _⟩ =>
    show win0_2.index t (0 : Fin 2) * 16384 ≤ (i 0).val ∧ (i 0).val < win0_2.index t (0 : Fin 2) * 16384 + 16384
    omega
  | ⟨1, _⟩ =>
    show win0_2.index t (1 : Fin 2) * 128 ≤ (i 1).val ∧ (i 1).val < win0_2.index t (1 : Fin 2) * 128 + 128
    omega

/-- The output array after the region: every row of the flattened batch against every row of the weight. -/
theorem region_out (c : Dev nD) :
    (dats m 0 c).arrAt 2 cfg0.N
      = rowsByRows (shapeCast S32768x128 (m ((c : Thread nD τ).loc main_arg0)) shapeCasts_S16x2048x128_S32768x128)
          (m ((c : Thread nD τ).loc main_arg1)) :=
  ((dats m 0 c).arrAt_eq_of_cover 2 (rowsByRows (V m c main_v0) (V m c main_arg1))
      (fun t _ => flushed_eq m c t) cover).trans
    (congrArg₂ (rowsByRows (n := 32768) (K := 128) (N := 128)) (entry_rows m c) (V_main_arg1 m c))

end Cert.KernelIdeal.Region

end
-- ==== Proof.KernelRun.lean ====
/-
  The kernel's run, with its result named.

  After the region the output array holds every row of the flattened batch against every row of the weight. The one
  host line after the region splits the 32768 rows back into 16 matrices of 2048 rows. Splitting the rows of the
  product of the flattened batch is the product taken matrix by matrix, so the kernel's result is

      y (b, s, o) = Σ_{k < 128} x (b, s, k) · W (o, k),

  and the two argument arrays end as they were launched.
-/
import proofs.«123026_g16398185136913_cont_week2b_1412_20_alg».proof.Proof.Gen.KernelIdeal.Frame
import proofs.«123026_g16398185136913_cont_week2b_1412_20_alg».proof.Proof.KernelArray
import Idealize.ShloMosaic.Lib.Pipeline.Value
import Idealize.ShloMosaic.Lib.StableHlo.Run

set_option maxRecDepth 16384

noncomputable section

namespace Cert.KernelIdeal.RowValue

open Idealize.ShloMosaic Idealize.ShloMosaic.TcCoe Idealize.ShloMosaic.ValueIdx Idealize.SL.Sem
open Idealize.ShloMosaic.Pipeline (Dat)
open Cert.KernelIdeal Cert.KernelIdeal.Gen Cert.LibRowsByRows

variable (m : (ℓ : Loc nD τ sig) → Buf (Elt Ideal) ℓ) (ρ : Dev nD → PrngReg)

/-- The host line after the region reads the region's output array, which the region left at its final contents,
    and splits its row axis. -/
theorem tail_result (c : Dev nD) :
    Pipeline.afterTail₀ cfgs (dats m) 0 (V0 m) [hostOps1] c main_v2
      = shapeCast S16x2048x128 ((dats m 0 c).arrAt 2 cfg0.N) shapeCasts_S32768x128_S16x2048x128 := by
  unfold Pipeline.afterTail₀
  show StableHlo.after hostOps1 _ (Proc.devRef .tc main_v2) = _
  after_results
  funext i
  exact congrArg (fun v : S32768x128.Idx → Elt Ideal .f32 => shapeCast S16x2048x128 v shapeCasts_S32768x128_S16x2048x128 i)
    (Pipeline.withArrays_arr spec0 launch0.win.arr_inj c (V0 m c) (fun w => (dats m 0 c).arrAt w cfg0.N) 2)

/-- The kernel's result, entry by entry: flatten, contract row by row, split — the batched contraction. -/
theorem result_eq (c : Dev nD) :
    Pipeline.afterTail₀ cfgs (dats m) 0 (V0 m) [hostOps1] c main_v2
      = batchRowsByRows (m ((c : Thread nD τ).loc main_arg0)) (m ((c : Thread nD τ).loc main_arg1)) := by
  rw [tail_result, Cert.KernelIdeal.Region.region_out]
  exact split_rowsByRows_flatten (n := 32768) (B := 16) (S := 2048) (K := 128) (N := 128) (by decide) _ _ _ _

/-- Every weakly fair execution of the kernel's program terminates with the result at the batched contraction of
    the arguments, and the arguments as launched. -/
theorem run : θ_run defs (onTc (τ := τ) (main (F := Ideal))) ⟨m, fun _ => 0, ρ⟩ fun r => ∀ c : Dev nD,
      r.2.mem ((c : Thread nD τ).loc main_v2)
        = batchRowsByRows (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
    ⟨((h c).2 main_v2 (Pipeline.mem_restRefs_of main_v2 (by decide) (by decide))).trans (result_eq m c),
     ((h c).2 main_arg0 (Pipeline.mem_restRefs_of main_arg0 (by decide) (by decide))).trans (W_main_arg0 m (dats m) c),
     ((h c).1 1).trans (((dats m 0 c).arrAt_in 1 rfl _).trans ((A_eq m c 1).trans (V_main_arg1 m c)))⟩)
    (run_main m ρ)

end Cert.KernelIdeal.RowValue

end
-- ==== Proof.ReferenceValue.lean ====
/-
  The reference's result as one function of its arguments.

  The reference treats the batch one matrix at a time: for each b < 16 it slices x at batch index b, drops the unit
  axis, multiplies the 2048 × 128 matrix by the transpose of the weight on the host, puts the unit axis back, and
  finally joins the sixteen results along the batch axis. Piece b at (0, s, o) is therefore
  Σ_k x (b, s, k) · W (o, k), the same expression for every b; and the joined array at (b, s, o) is piece b at
  (0, s, o), because every piece has extent one on the joined axis. So the result is

      y (b, s, o) = Σ_{k < 128} x (b, s, k) · W (o, k).
-/
import proofs.«123026_g16398185136913_cont_week2b_1412_20_alg».proof.Proof.Gen.ReferenceIdeal.Run
import proofs.«123026_g16398185136913_cont_week2b_1412_20_alg».proof.Proof.LibRowsByRows
import Idealize.ShloMosaic.Lib.Pipeline.Value
import Idealize.ShloMosaic.Lib.ValueIdx

set_option maxRecDepth 16384

noncomputable section

namespace Cert.ReferenceIdeal.RefValue

open Idealize.ShloMosaic Idealize.ShloMosaic.TcCoe Idealize.ShloMosaic.ValueIdx Idealize.SL.Sem
open Cert.ReferenceIdeal Cert.ReferenceIdeal.Gen Cert.LibRowsByRows
open scoped BigOperators

/-- One piece: the slice at batch index b, as a matrix, against the weight's rows, with the unit axis put back. -/
theorem piece_apply (b : ℕ) (hb : b < 16) (x : FVec Ideal S16x2048x128 .f32) (w : FVec Ideal S128x128 .f32)
    (hs : S16x2048x128.Slices ![b, 0, 0] S1x2048x128) (s : Fin 2048) (o : Fin 128) :
    broadcastInDim S1x2048x128 ![1, 2] bcast_S2048x128_S1x2048x128_1_2
        (Host.dotGeneral dot_S2048x128_S128x128_S2048x128_1_1_0_0_n_n none
          (shapeCast S2048x128 (extractStridedSlice S1x2048x128 ![b, 0, 0] x hs) shapeCasts_S1x2048x128_S2048x128) w)
        (ix3 (0 : Fin 1) s o)
      = ∑ k : Fin 128, x (ix3 (⟨b, hb⟩ : Fin 16) s k) * w (ix2 o k) := by
  rw [broadcastInDim_apply _ bcast_S2048x128_S1x2048x128_1_2 _ (ix3 (0 : Fin 1) s o) (ix2 s o) (fun a => match a with
    | ⟨0, _⟩ => by show s.val = if (2048 : Nat) = 1 then 0 else s.val; rw [if_neg (by decide)]
    | ⟨1, _⟩ => by show o.val = if (128 : Nat) = 1 then 0 else o.val; rw [if_neg (by decide)])]
  rw [show dot_S2048x128_S128x128_S2048x128_1_1_0_0_n_n = DotDims.transposedRhs 2048 128 128 from rfl,
    hostDot_eq_rowsByRows, rowsByRows_apply]
  refine Finset.sum_congr rfl fun k _ => ?_
  congr 1
  rw [shapeCast_apply _ shapeCasts_S1x2048x128_S2048x128 (ix2 s k) (ix3 (0 : Fin 1) s k) (by
    rw [Shape.rowMajor_val_three, Shape.rowMajor_val_two]
    show (0 * 2048 + s.val) * 128 + k.val = s.val * 128 + k.val
    omega)]
  exact extractStridedSlice_apply ![b, 0, 0] x hs (ix3 (0 : Fin 1) s k) (ix3 (⟨b, hb⟩ : Fin 16) s k) (fun a => match a with
    | ⟨0, _⟩ => by show b = b + 0; omega
    | ⟨1, _⟩ => by show s.val = 0 + s.val; omega
    | ⟨2, _⟩ => by show k.val = 0 + k.val; omega)

/- The join of the sixteen pieces read at (K, s, o): the pieces before piece K have extent one each, so the batch
   coordinate K falls in piece K at offset 0; then `piece_apply`. -/
set_option hygiene false in
local macro "join_piece" K:num : tactic => `(tactic|
  exact (concatenate_apply_piece (0 : Fin 3) _ _ (ix3 (⟨$K, by decide⟩ : Fin 16) s o) $K (by show ($K : ℕ) < 16; decide) S1x2048x128 _ rfl rfl $K rfl
      (ix3 (0 : Fin 1) s o) (fun a ha => match a with
        | ⟨0, _⟩ => absurd rfl ha
        | ⟨1, _⟩ => rfl
        | ⟨2, _⟩ => rfl) rfl).trans (piece_apply $K (by decide) _ _ _ s o))

set_option maxHeartbeats 2000000 in  -- sixteen pieces, each selected from the whole sixteen-piece term
/-- The reference's result, entry by entry: y (b, s, o) = Σ_k x (b, s, k) · W (o, k). -/
theorem result_eq (m : (ℓ : Loc nD τ sig) → Buf (Elt Ideal) ℓ) (c : Dev nD) :
    Cert.ReferenceIdeal.Value.res_main_v64 (F := Ideal) m c
      = batchRowsByRows (m ((c : Thread nD τ).loc main_arg0)) (m ((c : Thread nD τ).loc main_arg1)) := by
  funext i
  obtain ⟨b, s, o, rfl⟩ : ∃ (b : Fin 16) (s : Fin 2048) (o : Fin 128), i = ix3 b s o := ⟨i 0, i 1, i 2, eq_ix3 i⟩
  rw [batchRowsByRows_apply]
  unfold Cert.ReferenceIdeal.Value.res_main_v64
  match b with
  | ⟨0, _⟩ => join_piece 0
  | ⟨1, _⟩ => join_piece 1
  | ⟨2, _⟩ => join_piece 2
  | ⟨3, _⟩ => join_piece 3
  | ⟨4, _⟩ => join_piece 4
  | ⟨5, _⟩ => join_piece 5
  | ⟨6, _⟩ => join_piece 6
  | ⟨7, _⟩ => join_piece 7
  | ⟨8, _⟩ => join_piece 8
  | ⟨9, _⟩ => join_piece 9
  | ⟨10, _⟩ => join_piece 10
  | ⟨11, _⟩ => join_piece 11
  | ⟨12, _⟩ => join_piece 12
  | ⟨13, _⟩ => join_piece 13
  | ⟨14, _⟩ => join_piece 14
  | ⟨15, _⟩ => join_piece 15
  | ⟨n + 16, h⟩ => exact absurd h (by omega)

end Cert.ReferenceIdeal.RefValue

end
-- ==== Proof.lean ====
/-
  The kernel and its reference compute the same array.

  The input is a batch x of 16 matrices of 2048 rows and 128 columns, and a 128 × 128 weight W. Both programs
  compute, on the extended reals,

      y (b, s, o) = Σ_{k < 128} x (b, s, k) · W (o, k).

  The kernel flattens the batch to 32768 rows, multiplies two blocks of 16384 rows by the transpose of W (one grid
  point each, into a zero accumulator), and splits the rows back into 16 matrices. The reference multiplies the
  16 matrices by the transpose of W one at a time and stacks the results. Row (b, s) of the batch is row
  b · 2048 + s of the flattened batch, and every entry of the result depends on one row of x and one row of W; so
  the two arrangements name the same sums, with the factors in the same order. No law of arithmetic is needed,
  and so nothing is asked of the entries: the equality holds at infinite entries as well as at finite ones.

  The kernel's idealization rewrote nothing, so the statement relating the kernel to its idealization is empty.
  The three programs terminate without fault and leave their arguments unchanged.
-/
import proofs.«123026_g16398185136913_cont_week2b_1412_20_alg».proof.Defs
import proofs.«123026_g16398185136913_cont_week2b_1412_20_alg».proof.Proof.Gen.Kernel
import proofs.«123026_g16398185136913_cont_week2b_1412_20_alg».proof.Proof.Gen.Kernel.Skeleton
import proofs.«123026_g16398185136913_cont_week2b_1412_20_alg».proof.Proof.Gen.Kernel.Launch
import proofs.«123026_g16398185136913_cont_week2b_1412_20_alg».proof.Proof.Gen.Kernel.Points
import proofs.«123026_g16398185136913_cont_week2b_1412_20_alg».proof.Proof.Gen.Kernel.Frame
import proofs.«123026_g16398185136913_cont_week2b_1412_20_alg».proof.Proof.Gen.KernelIdeal
import proofs.«123026_g16398185136913_cont_week2b_1412_20_alg».proof.Proof.Gen.KernelIdeal.Skeleton
import proofs.«123026_g16398185136913_cont_week2b_1412_20_alg».proof.Proof.Gen.KernelIdeal.Launch
import proofs.«123026_g16398185136913_cont_week2b_1412_20_alg».proof.Proof.Gen.KernelIdeal.Points
import proofs.«123026_g16398185136913_cont_week2b_1412_20_alg».proof.Proof.Gen.KernelIdeal.Frame
import proofs.«123026_g16398185136913_cont_week2b_1412_20_alg».proof.Proof.Gen.ReferenceIdeal
import proofs.«123026_g16398185136913_cont_week2b_1412_20_alg».proof.Proof.Gen.ReferenceIdeal.Run
import proofs.«123026_g16398185136913_cont_week2b_1412_20_alg».proof.Proof.Gen.Pre_finite_inputs
import proofs.«123026_g16398185136913_cont_week2b_1412_20_alg».proof.Proof.KernelRun
import proofs.«123026_g16398185136913_cont_week2b_1412_20_alg».proof.Proof.ReferenceValue
import Idealize.ShloMosaic.Adequacy
import Idealize.ShloMosaic.Init

noncomputable section

namespace Cert.Proof

open Idealize.ShloMosaic Idealize.ShloMosaic.TcCoe Idealize.SL.Sem Cert.LibRowsByRows

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both runs end with the result at the batched contraction of the arguments; the arguments agree. -/
theorem algebraic : Cert.algebraic_KernelIdeal_ReferenceIdeal := by
  intro m ρ m' ρ' _ hagree
  refine ⟨fun c => batchRowsByRows (m ((c : Thread Cert.KernelIdeal.nD Cert.KernelIdeal.τ).loc Cert.KernelIdeal.main_arg0))
      (m ((c : Thread Cert.KernelIdeal.nD Cert.KernelIdeal.τ).loc Cert.KernelIdeal.main_arg1)),
    Cert.KernelIdeal.RowValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.RefValue.result_eq, (hagree c).1, (hagree c).2]

theorem claim : Cert.Claim := ⟨Cert.Kernel.Gen.facts, Cert.KernelIdeal.Gen.facts, Cert.ReferenceIdeal.Gen.facts,
  Cert.Pre_finite_inputs.Gen.facts, frame_kernel, frame_kernelIdeal, frame_referenceIdeal, trivial, algebraic⟩

end Cert.Proof

end
